-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S128x64 .f32) (main_arg3 : FVec F S64 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x65 : Shape := ⟨2, ![800000, 65]⟩
abbrev S50000x65 : Shape := ⟨2, ![50000, 65]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S800000x1, .f32⟩
  | .hbm, ⟨21, _⟩ => ⟨S800000x65, .f32⟩
  | .hbm, ⟨22, _⟩ => ⟨S_, .f32⟩
  | .hbm, ⟨23, _⟩ => ⟨S50000x65, .f32⟩
  | .hbm, ⟨24, _⟩ => ⟨S800000x1, .i32⟩
  | .hbm, ⟨25, _⟩ => ⟨S50000x65, .f32⟩
  | .hbm, ⟨26, _⟩ => ⟨S50000x64, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S64x64, .f32⟩
  | .hbm, ⟨35, _⟩ => ⟨S64x64, .f32⟩
  | .hbm, ⟨36, _⟩ => ⟨S1x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  bcast_S_S50000x1 : S_.BroadcastsInDim S50000x1 (![] : Fin 0 → Fin S50000x1.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x65_S800000x1_S800000x65_1_0_0_1_wf : ScatterDims.WF S50000x65 S800000x1 S800000x65 [1] [0] [0] 1
  dot_S5000x64_S64x64_S5000x64_1_0_0_1_n_n_wf : DotDims.WF S5000x64 S64x64 S5000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .f32⟩
  | .hbm, ⟨24, _⟩ => ⟨S800000x1, .f32⟩
  | .hbm, ⟨25, _⟩ => ⟨S_, .f32⟩
  | .hbm, ⟨26, _⟩ => ⟨S50000x1, .f32⟩
  | .hbm, ⟨27, _⟩ => ⟨S800000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x128, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S_, .f32⟩
  | .hbm, ⟨56, _⟩ => ⟨S800000x1, .f32⟩
  | .hbm, ⟨57, _⟩ => ⟨S_, .f32⟩
  | .hbm, ⟨58, _⟩ => ⟨S50000x1, .f32⟩
  | .hbm, ⟨59, _⟩ => ⟨S800000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S50000x128, .f32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel's program, run, with its result array named. The program is four segments — a stretch of host operations,
  the first dense region, a second stretch of host operations, the second dense region —, and the buffer contents at
  each boundary are a fold from the launch memory: a stretch applies its operations, a region replaces its arrays by
  what its write-backs leave. Every weakly fair execution terminates, nothing faulting, with the result buffer at the
  last boundary's contents and the six argument arrays as launched.
-/
import proofs.«100534_j24515673325905_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents `Gen.W4`, the arguments as launched. -/
theorem run_main : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.SageSpec.lean ====
/-
  The function both programs compute: two mean-aggregating graph layers.

  Nodes 0 … 49999 carry 64 features; edge `e` sends the source node's row to the destination node named by the word
  `iD (e, 0)` (read signed; a word that names no node sends nothing). One layer maps node features `A` to

      act ( A · W[0:64] + (segsum / max(deg, 1)) · W[64:128] + b )

  where `segsum (n, k)` is the sum over the edges landing on `n` of the gathered message entry (e, k), `deg n` the number
  of such edges, and the division is spelt as the product with `1 / max(deg, 1)`. The first layer's activation is
  `max(·, 0)`, the second's the identity; the second layer gathers the first layer's output.
-/
import Idealize.ShloMosaic.PureOps.Ideal
import Idealize.ShloMosaic.Lib.ValueIdx

noncomputable section

namespace Sage

open Idealize.ShloMosaic Idealize.ShloMosaic.ValueIdx

/-- node features [50000, 64] -/
abbrev SN : Shape := ⟨2, ![50000, 64]⟩
/-- a column over the nodes [50000, 1] -/
abbrev SC : Shape := ⟨2, ![50000, 1]⟩
/-- messages, one row per edge [800000, 64] -/
abbrev SM : Shape := ⟨2, ![800000, 64]⟩
/-- a column of integer words over the edges [800000, 1] -/
abbrev SI : Shape := ⟨2, ![800000, 1]⟩
/-- a layer's weights [128, 64] -/
abbrev SW : Shape := ⟨2, ![128, 64]⟩
/-- half of a layer's weights [64, 64] -/
abbrev SH : Shape := ⟨2, ![64, 64]⟩
/-- a bias as a row [1, 64] -/
abbrev SR : Shape := ⟨2, ![1, 64]⟩
/-- a bias [64] -/
abbrev SB : Shape := ⟨1, ![64]⟩

/-- The float word of `1.0`, as both programs spell it. -/
def one : EReal := Ideal.ofBits .f32 0x3F800000#32

/-- The activation: `max(·, 0)` or the identity. -/
def act (relu : Bool) (v : EReal) : EReal := if relu then max v 0 else v

/-- What one dense stage computes at entry (n, j) from node features `A`, aggregated sums `S`, a column `r` of
    reciprocals, the two weight halves and the bias row: `act (A·Wa + (S ∗ r)·Wb + b)`. -/
def denseAt (relu : Bool) (A S : SN.Idx → EReal) (r : SC.Idx → EReal) (Wa Wb : SH.Idx → EReal) (b : SR.Idx → EReal)
    (n : Fin 50000) (j : Fin 64) : EReal :=
  act relu ((∑ k : Fin 64, A (ix2 n k) * Wa (ix2 k j) + ∑ k : Fin 64, (S (ix2 n k) * r (ix2 n (0 : Fin 1))) * Wb (ix2 k j))
    + b (ix2 (0 : Fin 1) j))

/-- The dense stage as an array. -/
def dense (relu : Bool) (A S : SN.Idx → EReal) (r : SC.Idx → EReal) (Wa Wb : SH.Idx → EReal) (b : SR.Idx → EReal) :
    SN.Idx → EReal := fun i => denseAt relu A S r Wa Wb b (i 0) (i 1)

theorem dense_ix2 (relu : Bool) (A S : SN.Idx → EReal) (r : SC.Idx → EReal) (Wa Wb : SH.Idx → EReal) (b : SR.Idx → EReal)
    (n : Fin 50000) (j : Fin 64) : dense relu A S r Wa Wb b (ix2 n j) = denseAt relu A S r Wa Wb b n j := rfl

/-- The sum over the edges landing on node `n` of their message entries in column `k`. -/
def segsum (iD : IVec SI 32) (M : SM.Idx → EReal) (n : Fin 50000) (k : Fin 64) : EReal :=
  ∑ e : Fin 800000, if (iD (ix2 e (0 : Fin 1))).toInt = (n.val : ℤ) then M (ix2 e k) else 0

/-- The number of edges landing on node `n`, as a sum of ones. -/
def deg (iD : IVec SI 32) (n : Fin 50000) : EReal :=
  ∑ e : Fin 800000, if (iD (ix2 e (0 : Fin 1))).toInt = (n.val : ℤ) then one else 0

/-- The aggregated sums as an array. -/
def segArr (iD : IVec SI 32) (M : SM.Idx → EReal) : SN.Idx → EReal := fun i => segsum iD M (i 0) (i 1)

/-- The column of reciprocals `1 / max(deg, 1)`. -/
def invArr (iD : IVec SI 32) : SC.Idx → EReal := fun i => Ideal.div one (max (deg iD (i 0)) one)

/-- The top half of a layer's weights (rows 0 … 63). -/
def wTop (W : SW.Idx → EReal) : SH.Idx → EReal := fun i => W (ix2 (⟨(i 0).val, by have := idx2_lt0 i; omega⟩ : Fin 128) (i 1))

/-- The bottom half of a layer's weights (rows 64 … 127). -/
def wBot (W : SW.Idx → EReal) : SH.Idx → EReal := fun i => W (ix2 (⟨64 + (i 0).val, by have := idx2_lt0 i; omega⟩ : Fin 128) (i 1))

/-- The bias as a row. -/
def bRow (b : SB.Idx → EReal) : SR.Idx → EReal := fun i => b (ix1 (i 1))

/-- One layer: the dense stage at the aggregated messages `gath A` of the layer's own input. -/
def layer (relu : Bool) (gath : (SN.Idx → EReal) → (SM.Idx → EReal)) (iD : IVec SI 32) (A : SN.Idx → EReal)
    (W : SW.Idx → EReal) (b : SB.Idx → EReal) : SN.Idx → EReal :=
  dense relu A (segArr iD (gath A)) (invArr iD) (wTop W) (wBot W) (bRow b)

/-- The two layers. -/
def net (gath : (SN.Idx → EReal) → (SM.Idx → EReal)) (iD : IVec SI 32) (X : SN.Idx → EReal)
    (W1 : SW.Idx → EReal) (b1 : SB.Idx → EReal) (W2 : SW.Idx → EReal) (b2 : SB.Idx → EReal) : SN.Idx → EReal :=
  layer false gath iD (layer true gath iD X W1 b1) W2 b2

end Sage

end
-- ==== Proof.DensePayload.lean ====
/-
  The dense stage's block payload, read at an entry.

  Both regions' bodies compute, from the row blocks of the node features `A`, the aggregated sums `S` and the reciprocal
  column `r`, the two weight halves `Wa`, `Wb` and the bias row `b`, the block

      (A · Wa + (S ∗ r) · Wb) + b        (region 0 then cuts it below at zero)

  with `S ∗ r` the rows of `S` scaled by the column. Over the extended reals every rounding step is the identity, a
  product from a zero accumulator is the sum over the 64 contracted positions, and the two broadcasts (the column
  `[5000, 1]` along the lanes, the row `[1, 64]` along the rows) read the operand's one entry of that row or lane.
-/
import proofs.«100534_j24515673325905_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DensePayload

open Idealize.ShloMosaic Idealize.ShloMosaic.ValueIdx
open Cert.KernelIdeal Cert.KernelIdeal.Gen

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block's product is read in the output entry's row … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and the right operand in the output entry's column. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block's `[5000, 64] × [64, 64]` product from a zero accumulator, at entry `(p, q)`: the sum over the 64
    contracted positions of row `p` of the left operand against column `q` of the right one. -/
theorem matmul_zero_apply {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  show FloatOps.matmul dot_S5000x64_S64x64_S5000x64_1_0_0_1_n_n none lhs rhs (constant (F := Ideal) S5000x64 .f32 0x00000000#32) (ix2 p q) = _
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact rhs_col _ _)
  rw [el, er]

/-- Region 0's payload at entry `(p, q)` of the block: the node-feature row `p` against column `q` of the first weight
    half, plus the aggregated row `p` scaled by the row's reciprocal against column `q` of the second half, plus the bias
    entry `q`, cut below at zero. (The payload takes its loads in program order: sums, reciprocals, node features, then
    the two weight halves and the bias row.) -/
theorem k0_pay1_apply (x0 x1 : FVec Ideal S5000x64 .f32) (x2 : FVec Ideal S5000x1 .f32) (x3 x4 : FVec Ideal S64x64 .f32)
    (x5 : FVec Ideal S1x64 .f32) (p : Fin 5000) (q : Fin 64) :
    k0_pay1 (F := Ideal) x1 x2 x0 x3 x4 x5 (ix2 p q)
      = max ((∑ k : Fin 64, x0 (ix2 p k) * x3 (ix2 k q) + ∑ k : Fin 64, (x1 (ix2 p k) * x2 (ix2 p (0 : Fin 1))) * x4 (ix2 k q))
          + x5 (ix2 (0 : Fin 1) q)) 0 := by
  unfold k0_pay1
  simp only [shapeCast_self]
  rw [maximumf_apply, addf_apply, addf_apply, matmul_zero_apply, matmul_zero_apply, broadcastTo_1b_ab_apply, broadcast_apply]
  simp only [truncf_apply, mulf_apply, broadcastTo_a1_ab_apply]
  show max _ (Ideal.ofBits .f32 0x00000000#32) = _
  rw [Ideal.ofBits_zero_f32]

/-- Region 1's payload at entry `(p, q)` of the block: the same sums and bias entry, with no cut at zero. -/
theorem k1_pay1_apply (x0 x1 : FVec Ideal S5000x64 .f32) (x2 : FVec Ideal S5000x1 .f32) (x3 x4 : FVec Ideal S64x64 .f32)
    (x5 : FVec Ideal S1x64 .f32) (p : Fin 5000) (q : Fin 64) :
    k1_pay1 (F := Ideal) x1 x2 x0 x3 x4 x5 (ix2 p q)
      = (∑ k : Fin 64, x0 (ix2 p k) * x3 (ix2 k q) + ∑ k : Fin 64, (x1 (ix2 p k) * x2 (ix2 p (0 : Fin 1))) * x4 (ix2 k q))
          + x5 (ix2 (0 : Fin 1) q) := by
  unfold k1_pay1
  simp only [shapeCast_self]
  rw [addf_apply, addf_apply, matmul_zero_apply, matmul_zero_apply, broadcastTo_1b_ab_apply]
  simp only [truncf_apply, mulf_apply, broadcastTo_a1_ab_apply]

end Cert.KernelIdeal.DensePayload

end
-- ==== Proof.Region0.lean ====
/-
  Region 0 of the kernel's program, as a value: whatever the buffers hold when the region is entered, its output array
  after the run is the dense stage of the spec at the six operand arrays. Each grid point `t` works on rows
  5000·t … 5000·t + 4999: the three row-blocked operands (node features, aggregated sums, reciprocal column) are cut there,
  the two weight halves and the bias row are whole at every point, and the output block is written back to the same rows;
  the ten blocks cover the 50000 rows.
-/
import proofs.«100534_j24515673325905_2_alg».proof.Proof.Gen.KernelIdeal.Frame
import proofs.«100534_j24515673325905_2_alg».proof.Proof.SageSpec
import proofs.«100534_j24515673325905_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

section Blocks

/-- The zero offsets of a whole staging buffer's rectangle, as a constant function. -/
theorem zero_off0 : (![0, 0] : Fin 2 → Nat) = fun _ => 0 := funext fun a => by fin_cases a <;> rfl

/-- The printed index maps, decided once over the ten grid points: the three row-blocked operands and the output sit at
    row block `t`, lane block 0; the two weight halves and the bias row at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The node-feature block at point `t` holds rows `5000·t … 5000·t + 4999` of its array. -/
theorem iblk0_0_apply (c : Dev nD) (t : Fin cfg0.N) (p : Fin 5000) (k : Fin 64) (n : Fin 50000)
    (hn : n.val = 5000 * t.val + p.val) :
    (iblk0 (F := Ideal) V c 0 t : FVec Ideal S5000x64 .f32) (ix2 p k) = (V c main_arg0 : S50000x64.Idx → EReal) (ix2 n k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- The aggregated-sums block at point `t` holds rows `5000·t … 5000·t + 4999` of its array. -/
theorem iblk0_1_apply (c : Dev nD) (t : Fin cfg0.N) (p : Fin 5000) (k : Fin 64) (n : Fin 50000)
    (hn : n.val = 5000 * t.val + p.val) :
    (iblk0 (F := Ideal) V c 1 t : FVec Ideal S5000x64 .f32) (ix2 p k) = (V c main_v16 : S50000x64.Idx → EReal) (ix2 n k) := by
  obtain ⟨-, -, e0, e1, -⟩ := idx_facts0 t
  unfold iblk0
  rw [View.read_apply]
  show V c main_v16 _ = V c main_v16 _
  congr 1
  funext a; apply Fin.ext
  match a with
  | ⟨0, _⟩ => show win0_1.index t (0 : Fin 2) * 5000 + 1 * p.val = n.val; rw [e0, hn]; omega
  | ⟨1, _⟩ => show win0_1.index t (1 : Fin 2) * 64 + 1 * k.val = k.val; rw [e1]; omega

/-- The reciprocal column's block at point `t` holds rows `5000·t … 5000·t + 4999` of the column. -/
theorem iblk0_2_apply (c : Dev nD) (t : Fin cfg0.N) (p : Fin 5000) (n : Fin 50000)
    (hn : n.val = 5000 * t.val + p.val) :
    (iblk0 (F := Ideal) V c 2 t : FVec Ideal S5000x1 .f32) (ix2 p (0 : Fin 1)) = (V c main_v21 : S50000x1.Idx → EReal) (ix2 n (0 : Fin 1)) := by
  obtain ⟨-, -, -, -, e0, e1, -⟩ := idx_facts0 t
  unfold iblk0
  rw [View.read_apply]
  show V c main_v21 _ = V c main_v21 _
  congr 1
  funext a; apply Fin.ext
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- The first weight half is whole at every point. -/
theorem iblk0_3_eq (c : Dev nD) (t : Fin cfg0.N) :
    (iblk0 (F := Ideal) V c 3 t : FVec Ideal S64x64 .f32) = (V c main_v22 : S64x64.Idx → EReal) := by
  obtain ⟨-, -, -, -, -, -, e0, e1, -⟩ := idx_facts0 t
  funext j
  unfold iblk0
  rw [View.read_apply]
  show V c main_v22 _ = V c main_v22 j
  congr 1
  funext a; apply Fin.ext
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- The second weight half is whole at every point. -/
theorem iblk0_4_eq (c : Dev nD) (t : Fin cfg0.N) :
    (iblk0 (F := Ideal) V c 4 t : FVec Ideal S64x64 .f32) = (V c main_v23 : S64x64.Idx → EReal) := by
  obtain ⟨-, -, -, -, -, -, -, -, e0, e1, -⟩ := idx_facts0 t
  funext j
  unfold iblk0
  rw [View.read_apply]
  show V c main_v23 _ = V c main_v23 j
  congr 1
  funext a; apply Fin.ext
  match a with
  | ⟨0, _⟩ => show win0_4.index t (0 : Fin 2) * 64 + 1 * (j 0).val = (j 0).val; rw [e0]; omega
  | ⟨1, _⟩ => show win0_4.index t (1 : Fin 2) * 64 + 1 * (j 1).val = (j 1).val; rw [e1]; omega

/-- The bias row is whole at every point. -/
theorem iblk0_5_eq (c : Dev nD) (t : Fin cfg0.N) :
    (iblk0 (F := Ideal) V c 5 t : FVec Ideal S1x64 .f32) = (V c main_v24 : S1x64.Idx → EReal) := by
  obtain ⟨-, -, -, -, -, -, -, -, -, -, e0, e1, -⟩ := idx_facts0 t
  funext j
  unfold iblk0
  rw [View.read_apply]
  show V c main_v24 _ = V c main_v24 j
  congr 1
  funext a; apply Fin.ext
  match a with
  | ⟨0, _⟩ => show win0_5.index t (0 : Fin 2) * 1 + 1 * (j 0).val = (j 0).val; rw [e0]; omega
  | ⟨1, _⟩ => show win0_5.index t (1 : Fin 2) * 64 + 1 * (j 1).val = (j 1).val; rw [e1]; omega

/-- The body's block from blocks that hold rows `5000·T … 5000·T + 4999` of the three row-blocked arrays and the whole of
    the weight halves and the bias row: entry `(p, q)` is the dense stage at row `5000·T + p`, lane `q`. -/
theorem block0_eq (A S : S50000x64.Idx → EReal) (r : S50000x1.Idx → EReal) (Wa Wb : S64x64.Idx → EReal) (b : S1x64.Idx → EReal)
    (x0 x1 : FVec Ideal S5000x64 .f32) (x2 : FVec Ideal S5000x1 .f32) (x3 x4 : FVec Ideal S64x64 .f32) (x5 : FVec Ideal S1x64 .f32)
    (p : Fin 5000) (q : Fin 64) (n : Fin 50000)
    (h0 : ∀ k : Fin 64, x0 (ix2 p k) = A (ix2 n k)) (h1 : ∀ k : Fin 64, x1 (ix2 p k) = S (ix2 n k))
    (h2 : x2 (ix2 p (0 : Fin 1)) = r (ix2 n (0 : Fin 1))) (h3 : x3 = Wa) (h4 : x4 = Wb) (h5 : x5 = b) :
    k0_pay1 (F := Ideal) x1 x2 x0 x3 x4 x5 (ix2 p q) = Sage.dense true A S r Wa Wb b (ix2 n q) := by
  rw [DensePayload.k0_pay1_apply, Sage.dense_ix2]
  subst h3 h4 h5
  unfold Sage.denseAt Sage.act
  simp only [h0, h1, h2, if_true]

/-- WHAT POINT `t` WRITES BACK is block `t` — rows `5000·t … 5000·t + 4999` — of the dense stage of the operand arrays
    as the region finds them. -/
theorem flushed0_eq (c : Dev nD) (t : Fin cfg0.N) :
    (Gen.dat0 (F := Ideal) V c).flushed 6 t
      = ((cfg0.win 6).blk t).view.read (Elt Ideal) (Sage.dense true (V c main_arg0) (V c main_v16) (V c main_v21) (V c main_v22) (V c main_v23) (V c main_v24)) := by
  show (cfg0.win 6).cut (grid0.coords t) ((Gen.dat0 (F := Ideal) V c).after 6 t) = _
  rw [Gen.after0_6]
  unfold Gen.out0_6
  rw [View.canon_unit_zero zero_off0]
  simp only [View.ld_unit_zero (S := S5000x64) zero_off0, View.ld_unit_zero (S := S5000x1) zero_off0,
    View.ld_unit_zero (S := S64x64) zero_off0, View.ld_unit_zero (S := S1x64) zero_off0]
  have hN : cfg0.N = 10 := N_0
  have ht : t.val < 10 := hN ▸ t.isLt
  obtain ⟨-, -, -, -, -, -, -, -, -, -, -, -, e0, e1⟩ := idx_facts0 t
  funext j
  obtain ⟨p, q, rfl⟩ : ∃ (p : Fin 5000) (q : Fin 64), j = ix2 p q := ⟨j 0, j 1, eq_ix2 j⟩
  have hn : 5000 * t.val + p.val < 50000 := by have := p.isLt; omega
  refine (block0_eq (V c main_arg0) (V c main_v16) (V c main_v21) (V c main_v22) (V c main_v23) (V c main_v24) _ _ _ _ _ _ p q ⟨5000 * t.val + p.val, hn⟩
    (fun k => iblk0_0_apply V c t p k _ rfl) (fun k => iblk0_1_apply V c t p k _ rfl) (iblk0_2_apply V c t p _ rfl)
    (iblk0_3_eq V c t) (iblk0_4_eq V c t) (iblk0_5_eq V c t)).trans ?_
  show (Sage.dense true (V c main_arg0) (V c main_v16) (V c main_v21) (V c main_v22) (V c main_v23) (V c main_v24)) _ = (Sage.dense true (V c main_arg0) (V c main_v16) (V c main_v21) (V c main_v22) (V c main_v23) (V c main_v24)) (((cfg0.win 6).blk t).view.emb (ix2 p q))
  congr 1
  funext a; apply Fin.ext
  match a with
  | ⟨0, _⟩ => show 5000 * t.val + p.val = win0_6.index t (0 : Fin 2) * 5000 + 1 * p.val; rw [e0]; omega
  | ⟨1, _⟩ => show q.val = win0_6.index t (1 : Fin 2) * 64 + 1 * q.val; rw [e1]; omega

/-- An index of the output array is in point `t`'s block iff each coordinate is in the block's range on its axis. -/
theorem mem_blk0 (t : Fin cfg0.N) (i : S50000x64.Idx) :
    i ∈ ((cfg0.win 6).blk t).view.set
      ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- THE TEN BLOCKS COVER THE ARRAY: row `r` is in the block of point `r / 5000`. -/
theorem cover0 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, -, -, -, -, -, -, e0, e1⟩ := idx_facts0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 64 ≤ (i 1).val
      ∧ (i 1).val < win0_6.index ⟨(i 0).val / 5000, ht⟩ (1 : Fin 2) * 64 + 64
    rw [e1]; omega

end Blocks

/-- Region 0's output array after its ten grid points, from ANY entry contents `V`: the dense stage (with the activation max(·, 0))
    of the operand arrays as the region finds them. -/
theorem final0 (V : (c : Dev nD) → (b : Ref sig .tc) → Buf (Elt Ideal) ((c : Thread nD τ).loc b)) (c : Dev nD) :
    (Gen.dat0 (F := Ideal) V c).arrAt 6 cfg0.N
      = Sage.dense true (V c main_arg0) (V c main_v16) (V c main_v21) (V c main_v22) (V c main_v23) (V c main_v24) :=
  (Gen.dat0 (F := Ideal) V c).arrAt_eq_of_cover 6
    (Sage.dense true (V c main_arg0) (V c main_v16) (V c main_v21) (V c main_v22) (V c main_v23) (V c main_v24))
    (fun t _ => flushed0_eq V c t) cover0

end Cert.KernelIdeal.RegionValue

end
-- ==== Proof.Region1.lean ====
/-
  Region 1 of the kernel's program, as a value: whatever the buffers hold when the region is entered, its output array
  after the run is the dense stage of the spec at the six operand arrays. Each grid point `t` works on rows
  5000·t … 5000·t + 4999: the three row-blocked operands (node features, aggregated sums, reciprocal column) are cut there,
  the two weight halves and the bias row are whole at every point, and the output block is written back to the same rows;
  the ten blocks cover the 50000 rows.
-/
import proofs.«100534_j24515673325905_2_alg».proof.Proof.Gen.KernelIdeal.Frame
import proofs.«100534_j24515673325905_2_alg».proof.Proof.SageSpec
import proofs.«100534_j24515673325905_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

section Blocks

/-- The zero offsets of a whole staging buffer's rectangle, as a constant function. -/
theorem zero_off1 : (![0, 0] : Fin 2 → Nat) = fun _ => 0 := funext fun a => by fin_cases a <;> rfl

/-- The printed index maps, decided once over the ten grid points: the three row-blocked operands and the output sit at
    row block `t`, lane block 0; the two weight halves and the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The node-feature block at point `t` holds rows `5000·t … 5000·t + 4999` of its array. -/
theorem iblk1_0_apply (c : Dev nD) (t : Fin cfg1.N) (p : Fin 5000) (k : Fin 64) (n : Fin 50000)
    (hn : n.val = 5000 * t.val + p.val) :
    (iblk1 (F := Ideal) V c 0 t : FVec Ideal S5000x64 .f32) (ix2 p k) = (V c main_v25 : S50000x64.Idx → EReal) (ix2 n k) := by
  obtain ⟨e0, e1, -⟩ := idx_facts1 t
  unfold iblk1
  rw [View.read_apply]
  show V c main_v25 _ = V c main_v25 _
  congr 1
  funext a; apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- The aggregated-sums block at point `t` holds rows `5000·t … 5000·t + 4999` of its array. -/
theorem iblk1_1_apply (c : Dev nD) (t : Fin cfg1.N) (p : Fin 5000) (k : Fin 64) (n : Fin 50000)
    (hn : n.val = 5000 * t.val + p.val) :
    (iblk1 (F := Ideal) V c 1 t : FVec Ideal S5000x64 .f32) (ix2 p k) = (V c main_v35 : S50000x64.Idx → EReal) (ix2 n k) := by
  obtain ⟨-, -, e0, e1, -⟩ := idx_facts1 t
  unfold iblk1
  rw [View.read_apply]
  show V c main_v35 _ = V c main_v35 _
  congr 1
  funext a; apply Fin.ext
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The reciprocal column's block at point `t` holds rows `5000·t … 5000·t + 4999` of the column. -/
theorem iblk1_2_apply (c : Dev nD) (t : Fin cfg1.N) (p : Fin 5000) (n : Fin 50000)
    (hn : n.val = 5000 * t.val + p.val) :
    (iblk1 (F := Ideal) V c 2 t : FVec Ideal S5000x1 .f32) (ix2 p (0 : Fin 1)) = (V c main_v21 : S50000x1.Idx → EReal) (ix2 n (0 : Fin 1)) := by
  obtain ⟨-, -, -, -, e0, e1, -⟩ := idx_facts1 t
  unfold iblk1
  rw [View.read_apply]
  show V c main_v21 _ = V c main_v21 _
  congr 1
  funext a; apply Fin.ext
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- The first weight half is whole at every point. -/
theorem iblk1_3_eq (c : Dev nD) (t : Fin cfg1.N) :
    (iblk1 (F := Ideal) V c 3 t : FVec Ideal S64x64 .f32) = (V c main_v36 : S64x64.Idx → EReal) := by
  obtain ⟨-, -, -, -, -, -, e0, e1, -⟩ := idx_facts1 t
  funext j
  unfold iblk1
  rw [View.read_apply]
  show V c main_v36 _ = V c main_v36 j
  congr 1
  funext a; apply Fin.ext
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

/-- The second weight half is whole at every point. -/
theorem iblk1_4_eq (c : Dev nD) (t : Fin cfg1.N) :
    (iblk1 (F := Ideal) V c 4 t : FVec Ideal S64x64 .f32) = (V c main_v37 : S64x64.Idx → EReal) := by
  obtain ⟨-, -, -, -, -, -, -, -, e0, e1, -⟩ := idx_facts1 t
  funext j
  unfold iblk1
  rw [View.read_apply]
  show V c main_v37 _ = V c main_v37 j
  congr 1
  funext a; apply Fin.ext
  match a with
  | ⟨0, _⟩ => show win1_4.index t (0 : Fin 2) * 64 + 1 * (j 0).val = (j 0).val; rw [e0]; omega
  | ⟨1, _⟩ => show win1_4.index t (1 : Fin 2) * 64 + 1 * (j 1).val = (j 1).val; rw [e1]; omega

/-- The bias row is whole at every point. -/
theorem iblk1_5_eq (c : Dev nD) (t : Fin cfg1.N) :
    (iblk1 (F := Ideal) V c 5 t : FVec Ideal S1x64 .f32) = (V c main_v38 : S1x64.Idx → EReal) := by
  obtain ⟨-, -, -, -, -, -, -, -, -, -, e0, e1, -⟩ := idx_facts1 t
  funext j
  unfold iblk1
  rw [View.read_apply]
  show V c main_v38 _ = V c main_v38 j
  congr 1
  funext a; apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega

/-- The body's block from blocks that hold rows `5000·T … 5000·T + 4999` of the three row-blocked arrays and the whole of
    the weight halves and the bias row: entry `(p, q)` is the dense stage at row `5000·T + p`, lane `q`. -/
theorem block1_eq (A S : S50000x64.Idx → EReal) (r : S50000x1.Idx → EReal) (Wa Wb : S64x64.Idx → EReal) (b : S1x64.Idx → EReal)
    (x0 x1 : FVec Ideal S5000x64 .f32) (x2 : FVec Ideal S5000x1 .f32) (x3 x4 : FVec Ideal S64x64 .f32) (x5 : FVec Ideal S1x64 .f32)
    (p : Fin 5000) (q : Fin 64) (n : Fin 50000)
    (h0 : ∀ k : Fin 64, x0 (ix2 p k) = A (ix2 n k)) (h1 : ∀ k : Fin 64, x1 (ix2 p k) = S (ix2 n k))
    (h2 : x2 (ix2 p (0 : Fin 1)) = r (ix2 n (0 : Fin 1))) (h3 : x3 = Wa) (h4 : x4 = Wb) (h5 : x5 = b) :
    k1_pay1 (F := Ideal) x1 x2 x0 x3 x4 x5 (ix2 p q) = Sage.dense false A S r Wa Wb b (ix2 n q) := by
  rw [DensePayload.k1_pay1_apply, Sage.dense_ix2]
  subst h3 h4 h5
  unfold Sage.denseAt Sage.act
  simp only [h0, h1, h2, Bool.false_eq_true, if_false]

/-- WHAT POINT `t` WRITES BACK is block `t` — rows `5000·t … 5000·t + 4999` — of the dense stage of the operand arrays
    as the region finds them. -/
theorem flushed1_eq (c : Dev nD) (t : Fin cfg1.N) :
    (Gen.dat1 (F := Ideal) V c).flushed 6 t
      = ((cfg1.win 6).blk t).view.read (Elt Ideal) (Sage.dense false (V c main_v25) (V c main_v35) (V c main_v21) (V c main_v36) (V c main_v37) (V c main_v38)) := by
  show (cfg1.win 6).cut (grid1.coords t) ((Gen.dat1 (F := Ideal) V c).after 6 t) = _
  rw [Gen.after1_6]
  unfold Gen.out1_6
  rw [View.canon_unit_zero zero_off1]
  simp only [View.ld_unit_zero (S := S5000x64) zero_off1, View.ld_unit_zero (S := S5000x1) zero_off1,
    View.ld_unit_zero (S := S64x64) zero_off1, View.ld_unit_zero (S := S1x64) zero_off1]
  have hN : cfg1.N = 10 := N_1
  have ht : t.val < 10 := hN ▸ t.isLt
  obtain ⟨-, -, -, -, -, -, -, -, -, -, -, -, e0, e1⟩ := idx_facts1 t
  funext j
  obtain ⟨p, q, rfl⟩ : ∃ (p : Fin 5000) (q : Fin 64), j = ix2 p q := ⟨j 0, j 1, eq_ix2 j⟩
  have hn : 5000 * t.val + p.val < 50000 := by have := p.isLt; omega
  refine (block1_eq (V c main_v25) (V c main_v35) (V c main_v21) (V c main_v36) (V c main_v37) (V c main_v38) _ _ _ _ _ _ p q ⟨5000 * t.val + p.val, hn⟩
    (fun k => iblk1_0_apply V c t p k _ rfl) (fun k => iblk1_1_apply V c t p k _ rfl) (iblk1_2_apply V c t p _ rfl)
    (iblk1_3_eq V c t) (iblk1_4_eq V c t) (iblk1_5_eq V c t)).trans ?_
  show (Sage.dense false (V c main_v25) (V c main_v35) (V c main_v21) (V c main_v36) (V c main_v37) (V c main_v38)) _ = (Sage.dense false (V c main_v25) (V c main_v35) (V c main_v21) (V c main_v36) (V c main_v37) (V c main_v38)) (((cfg1.win 6).blk t).view.emb (ix2 p q))
  congr 1
  funext a; apply Fin.ext
  match a with
  | ⟨0, _⟩ => show 5000 * t.val + p.val = win1_6.index t (0 : Fin 2) * 5000 + 1 * p.val; rw [e0]; omega
  | ⟨1, _⟩ => show q.val = win1_6.index t (1 : Fin 2) * 64 + 1 * q.val; rw [e1]; omega

/-- An index of the output array is in point `t`'s block iff each coordinate is in the block's range on its axis. -/
theorem mem_blk1 (t : Fin cfg1.N) (i : S50000x64.Idx) :
    i ∈ ((cfg1.win 6).blk t).view.set
      ↔ ∀ a : Fin 2, win1_6.index t a * S5000x64.size a ≤ (i a).val ∧ (i a).val < win1_6.index t a * S5000x64.size a + S5000x64.size a := by
  show i ∈ ((View.whole main_v39).slice (win1_6.rect t)).set ↔ _
  rw [View.set_slice_whole, Rect.mem_set_unit]
  exact Iff.rfl

/-- THE TEN BLOCKS COVER THE ARRAY: row `r` is in the block of point `r / 5000`. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, -, -, -, -, e0, e1⟩ := idx_facts1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [e1]; omega

end Blocks

/-- Region 1's output array after its ten grid points, from ANY entry contents `V`: the dense stage (no activation)
    of the operand arrays as the region finds them. -/
theorem final1 (V : (c : Dev nD) → (b : Ref sig .tc) → Buf (Elt Ideal) ((c : Thread nD τ).loc b)) (c : Dev nD) :
    (Gen.dat1 (F := Ideal) V c).arrAt 6 cfg1.N
      = Sage.dense false (V c main_v25) (V c main_v35) (V c main_v21) (V c main_v36) (V c main_v37) (V c main_v38) :=
  (Gen.dat1 (F := Ideal) V c).arrAt_eq_of_cover 6
    (Sage.dense false (V c main_v25) (V c main_v35) (V c main_v21) (V c main_v36) (V c main_v37) (V c main_v38))
    (fun t _ => flushed1_eq V c t) cover1

end Cert.KernelIdeal.RegionValue

end
-- ==== Proof.HostArrays.lean ====
/-
  The arrays the kernel's host operations compute, named.

  Before the first region the program gathers the source rows, joins a column of ones to them, and adds every edge's
  65-entry row into its destination node's row in ONE scatter: columns 0 … 63 of the result are the aggregated sums,
  column 64 the in-degree; it then forms 1 / max(degree, 1). Between the regions it gathers the first layer's output
  and scatters its 64-entry rows. Each array is spelt here exactly as the program's operations spell it.
-/
import proofs.«100534_j24515673325905_2_alg».proof.KernelIdeal
import proofs.«100534_j24515673325905_2_alg».proof.Proof.Gen.KernelIdeal
import proofs.«100534_j24515673325905_2_alg».proof.Proof.SageSpec

noncomputable section

namespace Cert.KernelIdeal.HostValue

open Idealize.ShloMosaic Idealize.ShloMosaic.TcCoe
open Cert.KernelIdeal Cert.KernelIdeal.Gen

/-! ## The arrays, as the program's operations spell them -/

/-- The source words: row 0 of the edge list. -/
def srcWords (ei : IVec S2x800000 32) : IVec S800000 32 :=
  shapeCast S800000 (extractStridedSlice S1x800000 ![0, 0] ei slices_S2x800000_S1x800000_0_0) shapeCasts_S1x800000_S800000

/-- The destination words: row 1 of the edge list. -/
def dstWords (ei : IVec S2x800000 32) : IVec S800000 32 :=
  shapeCast S800000 (extractStridedSlice S1x800000 ![1, 0] ei slices_S2x800000_S1x800000_1_0) shapeCasts_S1x800000_S800000

/-- The source words, a negative one moved up by the node count, as a column. -/
def srcCol (ei : IVec S2x800000 32) : IVec S800000x1 32 :=
  broadcastInDim S800000x1 ![0] bcast_S800000_S800000x1_0
    (select (cmpi .slt (srcWords ei) (broadcastInDim S800000 ![] bcast_S_S800000 (constantI S_ 32 0#32)))
      (addi (srcWords ei) (broadcastInDim S800000 ![] bcast_S_S800000 (constantI S_ 32 50000#32))) (srcWords ei))

/-- The destination words as a column. -/
def dstCol (ei : IVec S2x800000 32) : IVec S800000x1 32 :=
  broadcastInDim S800000x1 ![0] bcast_S800000_S800000x1_0 (dstWords ei)

/-- The gather of the source nodes' rows, as a function of the array gathered from. -/
def gath (ei : IVec S2x800000 32) : (Sage.SN.Idx → EReal) → (Sage.SM.Idx → EReal) :=
  fun A => Host.gather gather_S50000x64_S800000x1_S800000x64_1_0_n_n_0_1_164 A (srcCol ei)

/-- The messages with a column of ones joined on the right. -/
def joined (M : FVec Ideal S800000x64 .f32) : FVec Ideal S800000x65 .f32 :=
  concatenate S800000x65 1 [⟨S800000x64, M⟩, ⟨S800000x1, broadcastInDim S800000x1 ![] bcast_S_S800000x1 (constant (F := Ideal) S_ .f32 0x3F800000#32)⟩]
    concatenates_S800000x64_S800000x1_S800000x65_d1

/-- The one 65-column scatter: sums and degree together. -/
def sums65 (ei : IVec S2x800000 32) (M : FVec Ideal S800000x64 .f32) : FVec Ideal S50000x65 .f32 :=
  Host.scatterAdd scatter_S50000x65_S800000x1_S800000x65_1_0_0_1
    (broadcastInDim S50000x65 ![] bcast_S_S50000x65 (constant (F := Ideal) S_ .f32 0x00000000#32)) (dstCol ei) (joined M)

/-- Columns 0 … 63: the aggregated sums. -/
def sums (ei : IVec S2x800000 32) (M : FVec Ideal S800000x64 .f32) : FVec Ideal S50000x64 .f32 :=
  extractStridedSlice S50000x64 ![0, 0] (sums65 ei M) slices_S50000x65_S50000x64_0_0

/-- Column 64: the in-degree. -/
def degCol (ei : IVec S2x800000 32) (M : FVec Ideal S800000x64 .f32) : FVec Ideal S50000x1 .f32 :=
  extractStridedSlice S50000x1 ![0, 64] (sums65 ei M) slices_S50000x65_S50000x1_0_64

/-- The reciprocal column 1 / max(degree, 1). -/
def recip (ei : IVec S2x800000 32) (M : FVec Ideal S800000x64 .f32) : FVec Ideal S50000x1 .f32 :=
  Host.divf (broadcastInDim S50000x1 ![] bcast_S_S50000x1 (constant (F := Ideal) S_ .f32 0x3F800000#32))
    (maximumf (degCol ei M) (broadcastInDim S50000x1 ![] bcast_S_S50000x1 (constant (F := Ideal) S_ .f32 0x3F800000#32)))

/-- The second layer's 64-column scatter of gathered rows. -/
def sums64 (ei : IVec S2x800000 32) (M : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32)) (dstCol ei) M

end Cert.KernelIdeal.HostValue

end
-- ==== Proof.HostStretch.lean ====
/-
  The two stretches of host operations of the kernel's program, read back: what each operand array of the two dense
  regions holds when its region is entered, as the named arrays of the program's arguments. The first stretch computes
  from the launch memory; the second from the contents the first region leaves, in which the only arrays that moved are
  the first region's output (its write-backs) — the source and destination words, the reciprocal column and the
  arguments are still what the first stretch or the launch left.
-/
import proofs.«100534_j24515673325905_2_alg».proof.Proof.Gen.KernelIdeal.Frame
import proofs.«100534_j24515673325905_2_alg».proof.Proof.HostArrays
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.HostValue

variable (m : (ℓ : Loc nD τ sig) → Buf (Elt Ideal) ℓ) (ρ : Dev nD → PrngReg) (c : Dev nD)

/-- The first region's output array after its run: the first layer's result. -/
abbrev hidden : S50000x64.Idx → EReal := (Gen.dat0 (F := Ideal) (Gen.V1 m ρ) c).arrAt 6 cfg0.N

/-! ## Before the first region -/

theorem v1_arg0 : (Gen.V1 m ρ c main_arg0 : S50000x64.Idx → EReal) = m ((c : Thread nD τ).loc main_arg0) := by
  show StableHlo.after hostOps0 (fun b => m (c, b)) (Proc.devRef .tc main_arg0) = _
  after_results_simp
theorem v1_v16 : (Gen.V1 m ρ c main_v16 : S50000x64.Idx → EReal)
    = sums (m ((c : Thread nD τ).loc main_arg1)) (gath (m ((c : Thread nD τ).loc main_arg1)) (m ((c : Thread nD τ).loc main_arg0))) := by
  show StableHlo.after hostOps0 (fun b => m (c, b)) (Proc.devRef .tc main_v16) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl
theorem v1_v21 : (Gen.V1 m ρ c main_v21 : S50000x1.Idx → EReal)
    = recip (m ((c : Thread nD τ).loc main_arg1)) (gath (m ((c : Thread nD τ).loc main_arg1)) (m ((c : Thread nD τ).loc main_arg0))) := by
  show StableHlo.after hostOps0 (fun b => m (c, b)) (Proc.devRef .tc main_v21) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl
theorem v1_v22 : (Gen.V1 m ρ c main_v22 : S64x64.Idx → EReal)
    = extractStridedSlice S64x64 ![0, 0] (m ((c : Thread nD τ).loc main_arg2)) slices_S128x64_S64x64_0_0 := by
  show StableHlo.after hostOps0 (fun b => m (c, b)) (Proc.devRef .tc main_v22) = _
  after_results_simp
theorem v1_v23 : (Gen.V1 m ρ c main_v23 : S64x64.Idx → EReal)
    = extractStridedSlice S64x64 ![64, 0] (m ((c : Thread nD τ).loc main_arg2)) slices_S128x64_S64x64_64_0 := by
  show StableHlo.after hostOps0 (fun b => m (c, b)) (Proc.devRef .tc main_v23) = _
  after_results_simp
theorem v1_v24 : (Gen.V1 m ρ c main_v24 : S1x64.Idx → EReal)
    = shapeCast S1x64 (m ((c : Thread nD τ).loc main_arg3)) shapeCasts_S64_S1x64 := by
  show StableHlo.after hostOps0 (fun b => m (c, b)) (Proc.devRef .tc main_v24) = _
  after_results_simp
  rfl

/-! ## What the second stretch still finds of the first: the words of the edge list, and the arguments -/

/-- The source words are row 0 of the edge list, as the first stretch left them. -/
theorem w1_v1 : (Gen.W1 m ρ c (Proc.devRef .tc main_v1) : S800000.Idx → BitVec 32) = srcWords (m ((c : Thread nD τ).loc main_arg1)) := by
  show StableHlo.after hostOps0 (fun b => m (c, b)) (Proc.devRef .tc main_v1) = _
  after_results_simp
  rfl
/-- The destination words are row 1 of the edge list. -/
theorem w1_v3 : (Gen.W1 m ρ c (Proc.devRef .tc main_v3) : S800000.Idx → BitVec 32) = dstWords (m ((c : Thread nD τ).loc main_arg1)) := by
  show StableHlo.after hostOps0 (fun b => m (c, b)) (Proc.devRef .tc main_v3) = _
  after_results_simp
  rfl
/-- No operation of the first stretch writes the second layer's weights … -/
theorem w1_arg4 : (Gen.W1 m ρ c (Proc.devRef .tc main_arg4) : S128x64.Idx → EReal) = m ((c : Thread nD τ).loc main_arg4) := by
  show StableHlo.after hostOps0 (fun b => m (c, b)) (Proc.devRef .tc main_arg4) = _
  after_results_simp
/-- … nor its bias. -/
theorem w1_arg5 : (Gen.W1 m ρ c (Proc.devRef .tc main_arg5) : S64.Idx → EReal) = m ((c : Thread nD τ).loc main_arg5) := by
  show StableHlo.after hostOps0 (fun b => m (c, b)) (Proc.devRef .tc main_arg5) = _
  after_results_simp

/-! ## Between the regions -/

theorem v3_v25 : (Gen.V3 m ρ c main_v25 : S50000x64.Idx → EReal) = hidden m ρ c := by
  show StableHlo.after hostOps1 (Gen.W2 m ρ c) (Proc.devRef .tc main_v25) = _
  after_results_simp
  exact Gen.W2_arr m ρ c 6
theorem v3_v35 : (Gen.V3 m ρ c main_v35 : S50000x64.Idx → EReal)
    = sums64 (m ((c : Thread nD τ).loc main_arg1)) (gath (m ((c : Thread nD τ).loc main_arg1)) (hidden m ρ c)) := by
  show StableHlo.after hostOps1 (Gen.W2 m ρ c) (Proc.devRef .tc main_v35) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [Gen.W2_arr m ρ c 6, Gen.W2_of_ne m ρ c main_v1 (by decide), Gen.W2_of_ne m ρ c main_v3 (by decide), w1_v1, w1_v3]
  rfl
theorem v3_v21 : (Gen.V3 m ρ c main_v21 : S50000x1.Idx → EReal) = Gen.V1 m ρ c main_v21 := by
  show StableHlo.after hostOps1 (Gen.W2 m ρ c) (Proc.devRef .tc main_v21) = _
  after_results_simp
  exact (Gen.W2_arr m ρ c 2).trans (((Gen.dat0 (Gen.V1 m ρ) c).arrAt_in 2 rfl _).trans (Gen.A_eq0 (Gen.V1 m ρ) c 2))
theorem v3_v36 : (Gen.V3 m ρ c main_v36 : S64x64.Idx → EReal)
    = extractStridedSlice S64x64 ![0, 0] (m ((c : Thread nD τ).loc main_arg4)) slices_S128x64_S64x64_0_0 := by
  show StableHlo.after hostOps1 (Gen.W2 m ρ c) (Proc.devRef .tc main_v36) = _
  after_results_simp
  rw [Gen.W2_of_ne m ρ c main_arg4 (by decide), w1_arg4]
theorem v3_v37 : (Gen.V3 m ρ c main_v37 : S64x64.Idx → EReal)
    = extractStridedSlice S64x64 ![64, 0] (m ((c : Thread nD τ).loc main_arg4)) slices_S128x64_S64x64_64_0 := by
  show StableHlo.after hostOps1 (Gen.W2 m ρ c) (Proc.devRef .tc main_v37) = _
  after_results_simp
  rw [Gen.W2_of_ne m ρ c main_arg4 (by decide), w1_arg4]
theorem v3_v38 : (Gen.V3 m ρ c main_v38 : S1x64.Idx → EReal)
    = shapeCast S1x64 (m ((c : Thread nD τ).loc main_arg5)) shapeCasts_S64_S1x64 := by
  show StableHlo.after hostOps1 (Gen.W2 m ρ c) (Proc.devRef .tc main_v38) = _
  after_results_simp
  rw [Gen.W2_of_ne m ρ c main_arg5 (by decide), w1_arg5]
  rfl

end Cert.KernelIdeal.HostStretch

end
-- ==== Proof.LibRowScatter.lean ====
/-
  A float scatter-add of ROWS, read at an entry.

  The operand is an [N, C] array, the scatter indices an [E, 1] column of integers, the updates an [E, C] array;
  the dimension numbers are those of `jax.ops.segment_sum` of row vectors: update row `e` is added, column by column,
  into operand row `idx[e, 0]` (read signed), and is dropped when that is not a row of the operand. At the exact
  instance the result entry (n, q) is therefore the operand entry plus the sum, over the edges `e` whose index word
  names `n`, of update entry (e, q). Any extents.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a row scatter: the updates' axis 1 is the window axis, the operand's axis 0 the inserted
    one and the one the (length-one) index vector addresses, the index vector along the indices' axis 1. Their
    conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's row axis the window starts at the edge's index word, read signed: the map names axis 0, and the
    scatter-indices entry it reads is (j 0, 0). -/
theorem start_zero {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the map does not name, the window starts at 0. -/
theorem start_one {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N E C wf).start j idx 1 = 0 := by
  unfold ScatterDims.start
  rw [dif_neg (show ¬ (1 : Fin 2) ∈ ([0] : List (Fin 2)) by decide)]

/-- The row axis is inserted, so the window coordinate there is 0. -/
theorem window_zero {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg (show ¬ (0 : Fin 2) ∈ (rowScatterDims N E C wf).sKept by
    simp [ScatterDims.sKept, Shape.kept])]

/-- The column axis is the one kept axis, and the updates' window axis goes to it: the window coordinate there is the
    update's column. -/
theorem window_one {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept by
    simp [ScatterDims.sKept, Shape.kept])]
  rfl

/-- Update entry (e, q) lands on operand entry (n, q') exactly when edge `e`'s index word, read signed, is `n` and the
    columns agree. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (n : Fin N) (q' : Fin C) :
    (rowScatterDims N E C wf).resultIdx? (ix2 e q) idx = some (ix2 n q')
      ↔ (idx (ix2 e (0 : Fin 1))).toInt = (n.val : ℤ) ∧ q = q' := by
  -- start + window on the two axes: the index word on the row axis, the update's column on the column axis
  have hs0 : (rowScatterDims N E C wf).start (ix2 e q) idx 0 + (rowScatterDims N E C wf).window (ix2 e q) 0
      = (idx (ix2 e (0 : Fin 1))).toInt := by
    rw [start_zero, window_zero]; simp; rfl
  have hs1 : (rowScatterDims N E C wf).start (ix2 e q) idx 1 + (rowScatterDims N E C wf).window (ix2 e q) 1
      = (q.val : ℤ) := by
    rw [start_one, window_one]; simp; rfl
  unfold ScatterDims.resultIdx?
  by_cases h : ∀ a, 0 ≤ (rowScatterDims N E C wf).start (ix2 e q) idx a + (rowScatterDims N E C wf).window (ix2 e q) a
      ∧ (rowScatterDims N E C wf).start (ix2 e q) idx a + (rowScatterDims N E C wf).window (ix2 e q) a
        < (⟨2, ![N, C]⟩ : Shape).size a
  · -- the update lands inside the operand: compare the landing index with (n, q') coordinate by coordinate
    rw [dif_pos h, Option.some.injEq]
    constructor
    · intro hEq
      have e0 := congrArg Fin.val (congrFun hEq 0)
      have e1 := congrArg Fin.val (congrFun hEq 1)
      have h0 := (h 0).1
      change ((rowScatterDims N E C wf).start (ix2 e q) idx 0 + (rowScatterDims N E C wf).window (ix2 e q) 0).toNat
        = n.val at e0
      change ((rowScatterDims N E C wf).start (ix2 e q) idx 1 + (rowScatterDims N E C wf).window (ix2 e q) 1).toNat
        = q'.val at e1
      rw [hs0] at e0 h0
      rw [hs1] at e1
      exact ⟨by omega, Fin.ext (by omega)⟩
    · rintro ⟨hS, rfl⟩
      funext a
      refine Fin.ext ?_
      match a with
      | ⟨0, _⟩ =>
        show ((rowScatterDims N E C wf).start (ix2 e q) idx 0 + (rowScatterDims N E C wf).window (ix2 e q) 0).toNat = n.val
        rw [hs0, hS]; simp
      | ⟨1, _⟩ =>
        show ((rowScatterDims N E C wf).start (ix2 e q) idx 1 + (rowScatterDims N E C wf).window (ix2 e q) 1).toNat = q.val
        rw [hs1]; simp
  · -- the update is dropped: then the index word cannot be a row n < N (with it, both axes would be in range)
    rw [dif_neg h]
    constructor
    · intro hc; cases hc
    · rintro ⟨hS, rfl⟩
      exfalso; apply h
      intro a
      match a with
      | ⟨0, _⟩ =>
        show 0 ≤ (rowScatterDims N E C wf).start (ix2 e q) idx 0 + (rowScatterDims N E C wf).window (ix2 e q) 0
          ∧ (rowScatterDims N E C wf).start (ix2 e q) idx 0 + (rowScatterDims N E C wf).window (ix2 e q) 0 < (N : ℤ)
        rw [hs0, hS]
        exact ⟨by omega, by exact_mod_cast n.isLt⟩
      | ⟨1, _⟩ =>
        show 0 ≤ (rowScatterDims N E C wf).start (ix2 e q) idx 1 + (rowScatterDims N E C wf).window (ix2 e q) 1
          ∧ (rowScatterDims N E C wf).start (ix2 e q) idx 1 + (rowScatterDims N E C wf).window (ix2 e q) 1 < (C : ℤ)
        rw [hs1]
        exact ⟨by omega, by exact_mod_cast q.isLt⟩

/-- THE ROW SCATTER-ADD READ AT (n, q): the operand entry plus the sum over the edges landing on row `n` of their
    update entries in column `q`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E, if (idx (ix2 e (0 : Fin 1))).toInt = (n.val : ℤ) then upd (ix2 e q) else 0 := by
  unfold Ideal.hostScatterAdd
  congr 1
  -- the filtered sum over update entries is the double sum over (edge, column) of the indicator times the entry
  rw [Finset.sum_filter, sum_idx2]
  refine Finset.sum_congr rfl (fun e _ => ?_)
  -- for one edge, only the column q can land on (n, q), and it does exactly when the edge's index word is n
  simp only [rowScatter_resultIdx_iff]
  by_cases hS : (idx (ix2 e (0 : Fin 1))).toInt = (n.val : ℤ)
  · simp only [hS, true_and, if_true]
    rw [Finset.sum_ite_eq']
    simp
  · simp [hS]

end Idealize.ShloMosaic.RowScatter

end
-- ==== Proof.HostSemantics.lean ====
/-
  The kernel's host arrays, as arrays of the spec.

  The one 65-column scatter adds, for every edge, the gathered row with a 1 joined on its right into the destination
  node's row: at (n, q) it is the sum over the edges landing on n of the joined row's entry q, so columns 0 … 63 are
  the spec's aggregated sums and column 64 its degree; the 64-column scatter of the second layer is the aggregated sums
  directly. The reciprocal column, the two halves of a weight matrix and the bias as a row are read entry by entry.
-/
import proofs.«100534_j24515673325905_2_alg».proof.Proof.HostArrays
import proofs.«100534_j24515673325905_2_alg».proof.Proof.LibRowScatter
import Idealize.ShloMosaic.Lib.Pipeline.Value
import Idealize.ShloMosaic.Lib.ValueIdx
import Idealize.ShloMosaic.PureOps.Ideal.Laws

noncomputable section

namespace Cert.KernelIdeal.HostValue

open Idealize.ShloMosaic Idealize.ShloMosaic.TcCoe Idealize.ShloMosaic.ValueIdx Idealize.ShloMosaic.RowScatter
open Cert.KernelIdeal Cert.KernelIdeal.Gen

/-! ## The constant arrays -/

/-- A broadcast of the zero word is 0 everywhere. -/
theorem zeros_apply {s : Shape} (h : S_.BroadcastsInDim s (![] : Fin 0 → Fin s.rank)) (j : s.Idx) :
    broadcastInDim s ![] h (constant (F := Ideal) S_ .f32 0x00000000#32) j = 0 := by
  rw [broadcastInDim_apply _ h _ j (fun a => a.elim0) (fun a => a.elim0)]
  exact Ideal.ofBits_zero_f32

/-- A broadcast of the word of 1.0 is that word's value everywhere. -/
theorem ones_apply {s : Shape} (h : S_.BroadcastsInDim s (![] : Fin 0 → Fin s.rank)) (j : s.Idx) :
    broadcastInDim s ![] h (constant (F := Ideal) S_ .f32 0x3F800000#32) j = Sage.one := by
  rw [broadcastInDim_apply _ h _ j (fun a => a.elim0) (fun a => a.elim0)]
  rfl

/-! ## The joined messages -/

/-- In columns 0 … 63 the joined array is the messages. -/
theorem joined_left (M : FVec Ideal S800000x64 .f32) (e : Fin 800000) (k : Fin 64) :
    joined M (ix2 e (⟨k.val, by omega⟩ : Fin 65)) = M (ix2 e k) := by
  unfold joined
  exact concatenate_pair_apply_left 1 M _ concatenates_S800000x64_S800000x1_S800000x65_d1 _ rfl (ix2 e k)
    (fun b => match b with | ⟨0, _⟩ => rfl | ⟨1, _⟩ => rfl)

/-- In column 64 the joined array is 1. -/
theorem joined_right (M : FVec Ideal S800000x64 .f32) (e : Fin 800000) :
    joined M (ix2 e (⟨64, by omega⟩ : Fin 65)) = Sage.one := by
  unfold joined
  rw [concatenate_pair_apply_right 1 M _ concatenates_S800000x64_S800000x1_S800000x65_d1 _ rfl rfl (ix2 e (0 : Fin 1))
    (fun b => match b with | ⟨0, _⟩ => fun _ => rfl | ⟨1, _⟩ => fun h => absurd rfl h) rfl]
  exact ones_apply _ _

/-! ## The scatters, over any operands -/

/-- A 65-column row scatter-add from zeros at (n, q): the sum over the edges landing on n of the updates' entries in
    column q. -/
theorem scatter65_apply (Z : S50000x65.Idx → EReal) (hZ : ∀ i, Z i = 0) (d : IVec S800000x1 32)
    (U : S800000x65.Idx → EReal) (n : Fin 50000) (q : Fin 65) :
    Host.scatterAdd (F := Ideal) (φ := .f32) scatter_S50000x65_S800000x1_S800000x65_1_0_0_1 Z d U (ix2 n q)
      = ∑ e : Fin 800000, if (d (ix2 e (0 : Fin 1))).toInt = (n.val : ℤ) then U (ix2 e q) else 0 := by
  have h := rowScatterAdd_apply (N := 50000) (E := 800000) (C := 65)
    Facts₀.scatter_S50000x65_S800000x1_S800000x65_1_0_0_1_wf Z d U n q
  rw [hZ, zero_add] at h
  exact h

/-- A 64-column row scatter-add from zeros at (n, q), likewise. -/
theorem scatter64_apply (Z : S50000x64.Idx → EReal) (hZ : ∀ i, Z i = 0) (d : IVec S800000x1 32)
    (U : S800000x64.Idx → EReal) (n : Fin 50000) (q : Fin 64) :
    Host.scatterAdd (F := Ideal) (φ := .f32) scatter_S50000x64_S800000x1_S800000x64_1_0_0_1 Z d U (ix2 n q)
      = Sage.segsum d U n q := by
  have h := rowScatterAdd_apply (N := 50000) (E := 800000) (C := 64)
    Facts₀.scatter_S50000x64_S800000x1_S800000x64_1_0_0_1_wf Z d U n q
  rw [hZ, zero_add] at h
  exact h

/-- With the updates the messages joined to a column of ones, columns 0 … 63 of the 65-column scatter are the
    aggregated sums of the messages. -/
theorem scatter65_left (d : IVec S800000x1 32) (U : S800000x65.Idx → EReal) (M : S800000x64.Idx → EReal)
    (hU : ∀ (e : Fin 800000) (k : Fin 64), U (ix2 e (⟨k.val, by omega⟩ : Fin 65)) = M (ix2 e k)) (n : Fin 50000) (k : Fin 64) :
    (∑ e : Fin 800000, if (d (ix2 e (0 : Fin 1))).toInt = (n.val : ℤ) then U (ix2 e (⟨k.val, by omega⟩ : Fin 65)) else 0)
      = Sage.segsum d M n k := by
  unfold Sage.segsum
  exact Finset.sum_congr rfl fun e _ => by rw [hU e k]

/-- … and column 64 is the degree. -/
theorem scatter65_right (d : IVec S800000x1 32) (U : S800000x65.Idx → EReal)
    (hU : ∀ e : Fin 800000, U (ix2 e (⟨64, by omega⟩ : Fin 65)) = Sage.one) (n : Fin 50000) :
    (∑ e : Fin 800000, if (d (ix2 e (0 : Fin 1))).toInt = (n.val : ℤ) then U (ix2 e (⟨64, by omega⟩ : Fin 65)) else 0)
      = Sage.deg d n := by
  unfold Sage.deg
  exact Finset.sum_congr rfl fun e _ => by rw [hU e]

/-! ## The program's arrays -/

/-- The 65-column scatter at (n, q). -/
theorem sums65_apply (ei : IVec S2x800000 32) (M : FVec Ideal S800000x64 .f32) (n : Fin 50000) (q : Fin 65) :
    sums65 ei M (ix2 n q)
      = ∑ e : Fin 800000, if (dstCol ei (ix2 e (0 : Fin 1))).toInt = (n.val : ℤ) then joined M (ix2 e q) else 0 :=
  scatter65_apply _ (fun i => zeros_apply _ i) (dstCol ei) (joined M) n q

/-- The aggregated-sums array at (n, k). -/
theorem segArr_ix2 (d : IVec Sage.SI 32) (M : Sage.SM.Idx → EReal) (n : Fin 50000) (k : Fin 64) :
    Sage.segArr d M (ix2 n k) = Sage.segsum d M n k := rfl

/-- Columns 0 … 63 of the one scatter are the spec's aggregated sums. -/
theorem sums_eq (ei : IVec S2x800000 32) (M : FVec Ideal S800000x64 .f32) : sums ei M = Sage.segArr (dstCol ei) M := by
  funext i
  obtain ⟨n, k, rfl⟩ : ∃ (n : Fin 50000) (k : Fin 64), i = ix2 n k := ⟨i 0, i 1, eq_ix2 i⟩
  rw [segArr_ix2]
  exact (extractStridedSlice_apply ![0, 0] (sums65 ei M) slices_S50000x65_S50000x64_0_0 (ix2 n k)
      (ix2 n (⟨k.val, by omega⟩ : Fin 65))
      (fun a => match a with | ⟨0, _⟩ => (Nat.zero_add _).symm | ⟨1, _⟩ => (Nat.zero_add _).symm)).trans
    ((sums65_apply ei M n _).trans (scatter65_left (dstCol ei) (joined M) M (joined_left M) n k))

/-- Column 64 of the one scatter is the spec's degree. -/
theorem degCol_apply (ei : IVec S2x800000 32) (M : FVec Ideal S800000x64 .f32) (n : Fin 50000) :
    degCol ei M (ix2 n (0 : Fin 1)) = Sage.deg (dstCol ei) n :=
  (extractStridedSlice_apply ![0, 64] (sums65 ei M) slices_S50000x65_S50000x1_0_64 (ix2 n (0 : Fin 1))
      (ix2 n (⟨64, by omega⟩ : Fin 65))
      (fun a => match a with | ⟨0, _⟩ => (Nat.zero_add _).symm | ⟨1, _⟩ => rfl)).trans
    ((sums65_apply ei M n _).trans (scatter65_right (dstCol ei) (joined M) (joined_right M) n))

/-- The reciprocal column at node n. -/
theorem invArr_ix2 (d : IVec Sage.SI 32) (n : Fin 50000) :
    Sage.invArr d (ix2 n (0 : Fin 1)) = Ideal.div Sage.one (max (Sage.deg d n) Sage.one) := rfl

/-- A quotient of a column by the maximum of another column and itself, at an entry. -/
theorem divf_max_apply (A D : S50000x1.Idx → EReal) (i : S50000x1.Idx) :
    Host.divf (F := Ideal) (φ := .f32) A (maximumf (F := Ideal) (φ := .f32) D A) i = Ideal.div (A i) (max (D i) (A i)) := rfl

/-- The reciprocal column is the spec's. -/
theorem recip_eq (ei : IVec S2x800000 32) (M : FVec Ideal S800000x64 .f32) : recip ei M = Sage.invArr (dstCol ei) := by
  funext i
  obtain ⟨n, z, rfl⟩ : ∃ (n : Fin 50000) (z : Fin 1), i = ix2 n z := ⟨i 0, i 1, eq_ix2 i⟩
  obtain rfl : z = 0 := Subsingleton.elim _ _
  refine (divf_max_apply _ (degCol ei M) (ix2 n (0 : Fin 1))).trans ?_
  rw [ones_apply, degCol_apply]
  exact (invArr_ix2 _ n).symm

/-- The second layer's 64-column scatter is the spec's aggregated sums. -/
theorem sums64_eq (ei : IVec S2x800000 32) (M : FVec Ideal S800000x64 .f32) : sums64 ei M = Sage.segArr (dstCol ei) M := by
  funext i
  obtain ⟨n, k, rfl⟩ : ∃ (n : Fin 50000) (k : Fin 64), i = ix2 n k := ⟨i 0, i 1, eq_ix2 i⟩
  rw [segArr_ix2]
  exact scatter64_apply _ (fun i => zeros_apply _ i) (dstCol ei) M n k

/-! ## The weights and the bias -/

/-- Rows 0 … 63 of a layer's weights. -/
theorem wTop_eq (W : FVec Ideal S128x64 .f32) :
    extractStridedSlice S64x64 ![0, 0] W slices_S128x64_S64x64_0_0 = Sage.wTop W := by
  funext i
  exact extractStridedSlice_apply ![0, 0] W slices_S128x64_S64x64_0_0 i _
    (fun a => match a with | ⟨0, _⟩ => (Nat.zero_add _).symm | ⟨1, _⟩ => (Nat.zero_add _).symm)

/-- Rows 64 … 127 of a layer's weights. -/
theorem wBot_eq (W : FVec Ideal S128x64 .f32) :
    extractStridedSlice S64x64 ![64, 0] W slices_S128x64_S64x64_64_0 = Sage.wBot W := by
  funext i
  exact extractStridedSlice_apply ![64, 0] W slices_S128x64_S64x64_64_0 i _
    (fun a => match a with | ⟨0, _⟩ => rfl | ⟨1, _⟩ => (Nat.zero_add _).symm)

/-- The bias as a row. -/
theorem bRow_eq (b : FVec Ideal S64 .f32) : shapeCast S1x64 b shapeCasts_S64_S1x64 = Sage.bRow b := by
  funext j
  rw [shapeCast_addUnit_apply ![64] b shapeCasts_S64_S1x64 j]
  exact congrArg b (funext fun a => match a with | ⟨0, _⟩ => rfl)

end Cert.KernelIdeal.HostValue

end
-- ==== Proof.KernelValue.lean ====
/-
  The kernel's result, as the spec's two layers of its arguments.

  The first region's operands are, at its entry, the node features, the aggregated sums of the gathered rows, the
  reciprocal column, the two halves of the first weight matrix and the first bias as a row: its output is the spec's
  first layer (with the activation). The second region's operands are that output, the aggregated sums of ITS gathered
  rows, the same reciprocal column, and the second layer's weights and bias: its output, the program's result, is the
  second layer of the first.
-/
import proofs.«100534_j24515673325905_2_alg».proof.Proof.Region0
import proofs.«100534_j24515673325905_2_alg».proof.Proof.Region1
import proofs.«100534_j24515673325905_2_alg».proof.Proof.HostStretch
import proofs.«100534_j24515673325905_2_alg».proof.Proof.HostSemantics

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostValue Cert.KernelIdeal.HostStretch Cert.KernelIdeal.RegionValue

variable (m : (ℓ : Loc nD τ sig) → Buf (Elt Ideal) ℓ) (ρ : Dev nD → PrngReg) (c : Dev nD)

/-- One layer of the spec is the dense stage at the spec's arrays. -/
theorem layer_def (relu : Bool) (g : (Sage.SN.Idx → EReal) → (Sage.SM.Idx → EReal)) (d : IVec Sage.SI 32)
    (A : Sage.SN.Idx → EReal) (W : Sage.SW.Idx → EReal) (b : Sage.SB.Idx → EReal) :
    Sage.dense relu A (Sage.segArr d (g A)) (Sage.invArr d) (Sage.wTop W) (Sage.wBot W) (Sage.bRow b)
      = Sage.layer relu g d A W b := rfl

/-- The first region's output is the spec's first layer of the arguments. -/
theorem hidden_eq :
    hidden m ρ c = Sage.layer true (gath (m ((c : Thread nD τ).loc main_arg1))) (dstCol (m ((c : Thread nD τ).loc main_arg1)))
      (m ((c : Thread nD τ).loc main_arg0)) (m ((c : Thread nD τ).loc main_arg2)) (m ((c : Thread nD τ).loc main_arg3)) := by
  show (Gen.dat0 (F := Ideal) (Gen.V1 m ρ) c).arrAt 6 cfg0.N = _
  rw [final0 (Gen.V1 m ρ) c, v1_arg0 m ρ c, v1_v16 m ρ c, v1_v21 m ρ c, v1_v22 m ρ c, v1_v23 m ρ c, v1_v24 m ρ c,
    sums_eq, recip_eq, wTop_eq, wBot_eq, bRow_eq]
  exact layer_def _ _ _ _ _ _

/-- The program's result buffer at the last boundary is the spec's two layers of the arguments. -/
theorem result_eq :
    (Gen.W4 m ρ c (Proc.devRef .tc main_v39) : S50000x64.Idx → EReal)
      = Sage.net (gath (m ((c : Thread nD τ).loc main_arg1))) (dstCol (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) := by
  refine (Gen.W4_arr m ρ c 6).trans ?_
  rw [final1 (Gen.V3 m ρ) c, v3_v25 m ρ c, v3_v35 m ρ c, v3_v21 m ρ c, v1_v21 m ρ c, v3_v36 m ρ c, v3_v37 m ρ c, v3_v38 m ρ c,
    hidden_eq m ρ c, sums64_eq, recip_eq, wTop_eq, wBot_eq, bRow_eq]
  exact layer_def _ _ _ _ _ _

end Cert.KernelIdeal.KernelValue

end
-- ==== Proof.SageConsts.lean ====
/-
  The float word of 1.0 denotes the real number one.

  The pattern 0x3F800000 has sign 0, exponent field 127 and fraction 0, so it denotes 2^23 · 2^(127 - 127 - 23) = 1.
-/
import Idealize.ShloMosaic.PureOps.Ideal

noncomputable section

namespace Sage.Consts

open Idealize.ShloMosaic

/-- The single-precision word 0x3F800000 is the extended real 1. -/
theorem ofBits_one : Ideal.ofBits .f32 0x3F800000#32 = 1 := by
  simp [Ideal.ofBits, Ideal.ieee, -EReal.coe_mul]
  norm_num

end Sage.Consts

end
-- ==== Proof.RefValue.lean ====
/-
  The reference, as the spec's two layers. Its gather of source rows (the source words wrapped when negative) and its
  destination column are kept as they are printed; every other operation is read at an entry: a 64-column row scatter-add
  and a one-column row scatter-add of ones give the aggregated sums and the degree, the quotient by max(deg, 1) is the
  product with the reciprocal (the divisor is a nonzero real), and the contraction over the 128 joined columns is the sum
  of the contractions over the two halves.
-/
import proofs.«100534_j24515673325905_2_alg».proof.Proof.Gen.ReferenceIdeal.Read
import proofs.«100534_j24515673325905_2_alg».proof.Proof.SageSpec
import proofs.«100534_j24515673325905_2_alg».proof.Proof.LibRowScatter
import proofs.«100534_j24515673325905_2_alg».proof.Proof.SageConsts
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's gather of the source nodes' rows, as a function of the array gathered from. -/
def gath (x1 : (⟨S2x800000, .i32⟩ : BufTy).Contents (Elt Ideal)) : (Sage.SN.Idx → EReal) → (Sage.SM.Idx → EReal) :=
  fun A => Host.gather gather_S50000x64_S800000x1_S800000x64_1_0_n_n_0_1_164 A (val_main_v9 (F := Ideal) x1)

/-- The reference's column of destination words. -/
def iD (x1 : (⟨S2x800000, .i32⟩ : BufTy).Contents (Elt Ideal)) : IVec Sage.SI 32 := val_main_v12 (F := Ideal) x1

/-! ## Small facts -/

/-- Two rank-2 indices with the same coordinates are the same index. -/
theorem idx2_ext {n0 n1 : Nat} (p q : (⟨2, ![n0, n1]⟩ : Shape).Idx) (h0 : (p 0).val = (q 0).val)
    (h1 : (p 1).val = (q 1).val) : p = q := by
  funext a
  match a with
  | ⟨0, _⟩ => exact Fin.ext h0
  | ⟨1, _⟩ => exact Fin.ext h1

/-- A finite sum of ones and zeros is a nonnegative real number. -/
theorem sum_ite_one_real {ι : Type} (s : Finset ι) (P : ι → Prop) [DecidablePred P] :
    ∃ r : ℝ, 0 ≤ r ∧ (∑ e ∈ s, if P e then (1 : EReal) else 0) = (r : EReal) := by
  classical
  induction s using Finset.induction_on with
  | empty => exact ⟨0, le_rfl, by simp⟩
  | insert a s ha ih =>
    obtain ⟨r, hr, h⟩ := ih
    rw [Finset.sum_insert ha, h]
    by_cases hp : P a
    · exact ⟨1 + r, by linarith, by rw [if_pos hp, EReal.coe_add, EReal.coe_one]⟩
    · exact ⟨r, hr, by rw [if_neg hp, zero_add]⟩

/-- The degree is a nonnegative real number. -/
theorem deg_real (d : IVec Sage.SI 32) (n : Fin 50000) : ∃ r : ℝ, 0 ≤ r ∧ Sage.deg d n = (r : EReal) := by
  unfold Sage.deg Sage.one
  rw [Sage.Consts.ofBits_one]
  exact sum_ite_one_real Finset.univ _

/-- Dividing by max(g, 1), g a nonnegative real: the divisor is a real number at least one, so the quotient of ANY
    extended real is its product with the reciprocal 1 / max(g, 1). -/
theorem div_max_one (s g : EReal) (hg : ∃ r : ℝ, 0 ≤ r ∧ g = (r : EReal)) :
    Ideal.div s (max g Sage.one) = s * Ideal.div Sage.one (max g Sage.one) := by
  obtain ⟨r, hr, rfl⟩ := hg
  unfold Sage.one
  rw [Sage.Consts.ofBits_one]
  have h1 : max (r : EReal) 1 = ((max r 1 : ℝ) : EReal) := by
    rw [EReal.coe_strictMono.monotone.map_max, EReal.coe_one]
  have hne : max r 1 ≠ 0 := by
    have := le_max_right r 1
    intro h0
    rw [h0] at this
    linarith
  rw [h1, Ideal.div_coe hne, Ideal.div_coe hne, one_mul]

/-! ## The two scatter-adds from zeros -/

/-- The 64-column row scatter-add from zeros is the sum over the edges landing on the row. -/
theorem scatter64_apply (Z : S50000x64.Idx → EReal) (hZ : ∀ i, Z i = 0) (d : IVec S800000x1 32)
    (M : S800000x64.Idx → EReal) (n : Fin 50000) (q : Fin 64) :
    Host.scatterAdd (F := Ideal) (φ := .f32) scatter_S50000x64_S800000x1_S800000x64_1_0_0_1 Z d M (ix2 n q)
      = Sage.segsum d M n q := by
  have h := RowScatter.rowScatterAdd_apply (N := 50000) (E := 800000) (C := 64)
    Facts₀.scatter_S50000x64_S800000x1_S800000x64_1_0_0_1_wf Z d M n q
  rw [hZ, zero_add] at h
  exact h

/-- The one-column row scatter-add of ones from zeros is the degree. -/
theorem scatter1_apply (Z : S50000x1.Idx → EReal) (hZ : ∀ i, Z i = 0) (d : IVec S800000x1 32)
    (O : S800000x1.Idx → EReal) (hO : ∀ i, O i = Sage.one) (n : Fin 50000) :
    Host.scatterAdd (F := Ideal) (φ := .f32) scatter_S50000x1_S800000x1_S800000x1_1_0_0_1 Z d O (ix2 n (0 : Fin 1))
      = Sage.deg d n := by
  have h := RowScatter.rowScatterAdd_apply (N := 50000) (E := 800000) (C := 1)
    Facts₀.scatter_S50000x1_S800000x1_S800000x1_1_0_0_1_wf Z d O n 0
  rw [hZ, zero_add] at h
  simp only [hO] at h
  exact h

/-! ## The contraction over the joined columns -/

/-- The contraction of the join of two 64-column arrays with a 128-row weight array is the sum of the two halves'
    contractions: columns 0 … 63 of the join are the first array's, columns 64 … 127 the second's. -/
theorem contract_concat (A Q : S50000x64.Idx → EReal) (W : S128x64.Idx → EReal) (n : Fin 50000) (j : Fin 64) :
    ∑ k : Fin 128, (concatenate S50000x128 1 [⟨S50000x64, A⟩, ⟨S50000x64, Q⟩]
        concatenates_S50000x64_S50000x64_S50000x128_d1) (lidx_main_v23 (ix2 n j) k) * W (ridx_main_v23 (ix2 n j) k)
      = ∑ k : Fin 64, A (ix2 n k) * Sage.wTop W (ix2 k j) + ∑ k : Fin 64, Q (ix2 n k) * Sage.wBot W (ix2 k j) := by
  have hs := Fin.sum_univ_add (M := EReal) (a := 64) (b := 64) (fun k : Fin (64 + 64) =>
    (concatenate S50000x128 1 [⟨S50000x64, A⟩, ⟨S50000x64, Q⟩]
        concatenates_S50000x64_S50000x64_S50000x128_d1) (lidx_main_v23 (ix2 n j) k) * W (ridx_main_v23 (ix2 n j) k))
  refine hs.trans (congrArg₂ (· + ·) ?_ ?_)
  · refine Finset.sum_congr rfl fun k _ => ?_
    rw [concatenate_pair_apply_left (1 : Fin 2) A Q concatenates_S50000x64_S50000x64_S50000x128_d1
      (lidx_main_v23 (ix2 n j) (Fin.castAdd 64 k)) rfl (ix2 n k)
      (fun b => match b with | ⟨0, _⟩ => rfl | ⟨1, _⟩ => rfl)]
    exact congrArg (fun t => A (ix2 n k) * W t) (idx2_ext _ _ rfl rfl)
  · refine Finset.sum_congr rfl fun k _ => ?_
    rw [concatenate_pair_apply_right (1 : Fin 2) A Q concatenates_S50000x64_S50000x64_S50000x128_d1
      (lidx_main_v23 (ix2 n j) (Fin.natAdd 64 k)) rfl rfl (ix2 n k)
      (fun b => match b with | ⟨0, _⟩ => fun _ => rfl | ⟨1, _⟩ => fun h => absurd rfl h)
      (by show k.val + 64 = 64 + k.val; omega)]
    exact congrArg (fun t => Q (ix2 n k) * W t) (idx2_ext _ _ rfl rfl)

/-! ## One layer before its bias and activation -/

/-- The contraction of the joined array `[A | scatter(M) / max(deg, 1)]` with the weights, at entry (n, j): the spec's two
    contractions, the quotient spelt as the product with the reciprocal. The arrays of zeros and ones are any arrays
    that are zero, resp. one, at every index; the two copies of the destination column are equal. -/
theorem layer_pre (A : S50000x64.Idx → EReal) (d d' : IVec S800000x1 32) (hd : d' = d) (M : S800000x64.Idx → EReal)
    (W : S128x64.Idx → EReal)
    (Z64 : S50000x64.Idx → EReal) (hZ64 : ∀ i, Z64 i = 0) (Z1 : S50000x1.Idx → EReal) (hZ1 : ∀ i, Z1 i = 0)
    (Oe : S800000x1.Idx → EReal) (hOe : ∀ i, Oe i = Sage.one) (On : S50000x1.Idx → EReal) (hOn : ∀ i, On i = Sage.one)
    (n : Fin 50000) (j : Fin 64) :
    ∑ k : Fin 128, (concatenate S50000x128 1 [⟨S50000x64, A⟩, ⟨S50000x64,
        Host.divf (F := Ideal) (φ := .f32) (Host.scatterAdd scatter_S50000x64_S800000x1_S800000x64_1_0_0_1 Z64 d M)
          (broadcastInDim S50000x64 ![0, 1] bcast_S50000x1_S50000x64_0_1
            (maximumf (F := Ideal) (φ := .f32)
              (Host.scatterAdd scatter_S50000x1_S800000x1_S800000x1_1_0_0_1 Z1 d' Oe) On))⟩]
        concatenates_S50000x64_S50000x64_S50000x128_d1) (lidx_main_v23 (ix2 n j) k) * W (ridx_main_v23 (ix2 n j) k)
      = ∑ k : Fin 64, A (ix2 n k) * Sage.wTop W (ix2 k j)
        + ∑ k : Fin 64, (Sage.segArr d M (ix2 n k) * Sage.invArr d (ix2 n (0 : Fin 1))) * Sage.wBot W (ix2 k j) := by
  subst hd
  refine (contract_concat A _ W n j).trans (congrArg (fun t => ∑ k : Fin 64, A (ix2 n k) * Sage.wTop W (ix2 k j) + t) ?_)
  refine Finset.sum_congr rfl fun k _ => ?_
  refine congrArg (fun t => t * Sage.wBot W (ix2 k j)) ?_
  show Ideal.div
      (Host.scatterAdd (F := Ideal) (φ := .f32) scatter_S50000x64_S800000x1_S800000x64_1_0_0_1 Z64 d' M (ix2 n k))
      (broadcastInDim S50000x64 ![0, 1] bcast_S50000x1_S50000x64_0_1
        (maximumf (F := Ideal) (φ := .f32)
          (Host.scatterAdd scatter_S50000x1_S800000x1_S800000x1_1_0_0_1 Z1 d' Oe) On) (ix2 n k))
    = Sage.segsum d' M n k * Ideal.div Sage.one (max (Sage.deg d' n) Sage.one)
  rw [scatter64_apply Z64 hZ64, broadcastInDim_apply _ bcast_S50000x1_S50000x64_0_1 _ (ix2 n k) (ix2 n (0 : Fin 1))
    (fun a => match a with
      | ⟨0, _⟩ => by show n.val = if (50000 : Nat) = 1 then 0 else n.val; rw [if_neg (by decide)]
      | ⟨1, _⟩ => by show 0 = if (1 : Nat) = 1 then 0 else k.val; rw [if_pos rfl])]
  show Ideal.div _ (max (Host.scatterAdd (F := Ideal) (φ := .f32) scatter_S50000x1_S800000x1_S800000x1_1_0_0_1
      Z1 d' Oe (ix2 n (0 : Fin 1))) (On (ix2 n (0 : Fin 1)))) = _
  rw [scatter1_apply Z1 hZ1 d' Oe hOe, hOn]
  exact div_max_one _ _ (deg_real d' n)

/-! ## The arrays of zeros and ones, and the bias rows -/

theorem v11_zero (i : S50000x64.Idx) : val_main_v11 (F := Ideal) i = 0 := by
  rw [val_main_v11_apply, val_main_cst_apply]; exact Ideal.ofBits_zero_f32
theorem v15_zero (i : S50000x1.Idx) : val_main_v15 (F := Ideal) i = 0 := by
  rw [val_main_v15_apply, val_main_cst_2_apply]; exact Ideal.ofBits_zero_f32
theorem v14_one (i : S800000x1.Idx) : val_main_v14 (F := Ideal) i = Sage.one := by
  rw [val_main_v14_apply, val_main_cst_1_apply]; rfl
theorem v18_one (i : S50000x1.Idx) : val_main_v18 (F := Ideal) i = Sage.one := by
  rw [val_main_v18_apply, val_main_cst_3_apply]; rfl
theorem v35_zero (i : S50000x64.Idx) : val_main_v35 (F := Ideal) i = 0 := by
  rw [val_main_v35_apply, val_main_cst_6_apply]; exact Ideal.ofBits_zero_f32
theorem v39_zero (i : S50000x1.Idx) : val_main_v39 (F := Ideal) i = 0 := by
  rw [val_main_v39_apply, val_main_cst_8_apply]; exact Ideal.ofBits_zero_f32
theorem v38_one (i : S800000x1.Idx) : val_main_v38 (F := Ideal) i = Sage.one := by
  rw [val_main_v38_apply, val_main_cst_7_apply]; rfl
theorem v42_one (i : S50000x1.Idx) : val_main_v42 (F := Ideal) i = Sage.one := by
  rw [val_main_v42_apply, val_main_cst_9_apply]; rfl

/-- The first layer's twice-broadcast bias at (n, j) is the bias at j. -/
theorem bias1 (x3 : (⟨S64, .f32⟩ : BufTy).Contents (Elt Ideal)) (n : Fin 50000) (j : Fin 64) :
    val_main_v25 (F := Ideal) x3 (ix2 n j) = Sage.bRow x3 (ix2 (0 : Fin 1) j) := by
  rw [val_main_v25_apply, val_main_v24_apply]
  exact congrArg x3 (funext fun a => match a with | ⟨0, _⟩ => rfl)

/-- The second layer's twice-broadcast bias at (n, j) is the bias at j. -/
theorem bias2 (x5 : (⟨S64, .f32⟩ : BufTy).Contents (Elt Ideal)) (n : Fin 50000) (j : Fin 64) :
    val_main_v49 (F := Ideal) x5 (ix2 n j) = Sage.bRow x5 (ix2 (0 : Fin 1) j) := by
  rw [val_main_v49_apply, val_main_v48_apply]
  exact congrArg x5 (funext fun a => match a with | ⟨0, _⟩ => rfl)

/-! ## The two layers -/

/-- The reference's first layer (through its `max(·, 0)`) is the spec's. -/
theorem layer1_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal)) :
    val_main_v27 (F := Ideal) x0 x1 x2 x3 = Sage.layer true (gath x1) (iD x1) x0 x2 x3 := by
  funext i
  obtain ⟨n, j, rfl⟩ : ∃ n j, i = ix2 n j := ⟨i 0, i 1, eq_ix2 i⟩
  rw [val_main_v27_apply, val_main_v26_apply, val_main_v23_apply, bias1, val_main_call0_v0_apply,
    val_main_call0_cst_apply]
  unfold val_main_v22 val_main_v21 val_main_v20 val_main_v19 val_main_v17 val_main_v13 val_main_v10
  have hpre := layer_pre x0 (val_main_v12 (F := Ideal) x1) (val_main_v16 (F := Ideal) x1) rfl
    (Host.gather gather_S50000x64_S800000x1_S800000x64_1_0_n_n_0_1_164 x0 (val_main_v9 (F := Ideal) x1)) x2
    (val_main_v11 (F := Ideal)) v11_zero (val_main_v15 (F := Ideal)) v15_zero (val_main_v14 (F := Ideal)) v14_one
    (val_main_v18 (F := Ideal)) v18_one n j
  rw [hpre]
  show max (_ + _) (Ideal.ofBits .f32 0x00000000#32) = _
  rw [Ideal.ofBits_zero_f32]
  rfl

/-- The reference's result is the spec's two layers of its arguments. -/
theorem result_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal)) :
    val_main_v50 (F := Ideal) x0 x1 x2 x3 x4 x5 = Sage.net (gath x1) (iD x1) x0 x2 x3 x4 x5 := by
  funext i
  obtain ⟨n, j, rfl⟩ : ∃ n j, i = ix2 n j := ⟨i 0, i 1, eq_ix2 i⟩
  rw [val_main_v50_apply, val_main_v47_apply, bias2]
  unfold val_main_v46 val_main_v45 val_main_v44 val_main_v43 val_main_v41 val_main_v37 val_main_v34
  have e33 : val_main_v33 (F := Ideal) x1 = val_main_v9 (F := Ideal) x1 := rfl
  have e36 : val_main_v36 (F := Ideal) x1 = val_main_v12 (F := Ideal) x1 := rfl
  rw [e33, e36, layer1_eq]
  have hpre := layer_pre (Sage.layer true (gath x1) (iD x1) x0 x2 x3) (val_main_v12 (F := Ideal) x1)
    (val_main_v40 (F := Ideal) x1) rfl
    (Host.gather gather_S50000x64_S800000x1_S800000x64_1_0_n_n_0_1_164 (Sage.layer true (gath x1) (iD x1) x0 x2 x3)
      (val_main_v9 (F := Ideal) x1)) x4
    (val_main_v35 (F := Ideal)) v35_zero (val_main_v39 (F := Ideal)) v39_zero (val_main_v38 (F := Ideal)) v38_one
    (val_main_v42 (F := Ideal)) v42_one n j
  exact (congrArg (fun t => t + Sage.bRow x5 (ix2 (0 : Fin 1) j)) hpre).trans rfl

end Cert.ReferenceIdeal.RefValue

end
-- ==== Proof.Bridge.lean ====
/-
  The two programs spell the source column, the destination column and the gather with the same operations on the same
  edge list: the kernel's named arrays are the reference's.
-/
import proofs.«100534_j24515673325905_2_alg».proof.Proof.HostArrays
import proofs.«100534_j24515673325905_2_alg».proof.Proof.RefValue

noncomputable section

namespace Cert.Proof.Bridge

open Idealize.ShloMosaic

/-- The two programs' gather records have the same dimension numbers and slice sizes. -/
theorem gatherDims_eq :
    Cert.KernelIdeal.gather_S50000x64_S800000x1_S800000x64_1_0_n_n_0_1_164
      = Cert.ReferenceIdeal.gather_S50000x64_S800000x1_S800000x64_1_0_n_n_0_1_164 := rfl

/-- The source columns agree: the same slice, reshape, wrap of the negative words and broadcast. -/
theorem srcCol_eq (ei : IVec Cert.KernelIdeal.S2x800000 32) :
    Cert.KernelIdeal.HostValue.srcCol ei = Cert.ReferenceIdeal.Read.val_main_v9 (F := Ideal) ei := by
  unfold Cert.KernelIdeal.HostValue.srcCol Cert.KernelIdeal.HostValue.srcWords
    Cert.ReferenceIdeal.Read.val_main_v9 Cert.ReferenceIdeal.Read.val_main_v8 Cert.ReferenceIdeal.Read.val_main_v7
    Cert.ReferenceIdeal.Read.val_main_v6 Cert.ReferenceIdeal.Read.val_main_c_0 Cert.ReferenceIdeal.Read.val_main_v5
    Cert.ReferenceIdeal.Read.val_main_v4 Cert.ReferenceIdeal.Read.val_main_c Cert.ReferenceIdeal.Read.val_main_v1
    Cert.ReferenceIdeal.Read.val_main_v0
  rfl

/-- The destination columns agree. -/
theorem dstCol_eq (ei : IVec Cert.KernelIdeal.S2x800000 32) :
    Cert.KernelIdeal.HostValue.dstCol ei = Cert.ReferenceIdeal.RefValue.iD ei := by
  unfold Cert.KernelIdeal.HostValue.dstCol Cert.KernelIdeal.HostValue.dstWords Cert.ReferenceIdeal.RefValue.iD
    Cert.ReferenceIdeal.Read.val_main_v12 Cert.ReferenceIdeal.Read.val_main_v3 Cert.ReferenceIdeal.Read.val_main_v2
  rfl

/-- The gathers of source rows agree. -/
theorem gath_eq (ei : IVec Cert.KernelIdeal.S2x800000 32) :
    Cert.KernelIdeal.HostValue.gath ei = Cert.ReferenceIdeal.RefValue.gath ei := by
  unfold Cert.KernelIdeal.HostValue.gath Cert.ReferenceIdeal.RefValue.gath
  rw [srcCol_eq, gatherDims_eq]

end Cert.Proof.Bridge

end
-- ==== Proof.lean ====
/-
  Two mean-aggregating graph layers, computed two ways, are one function on the extended reals.

  The kernel's program gathers the source rows on the host, adds each edge's row (with a 1 joined on its right) into its
  destination node's row in one 65-column scatter — sums and in-degree together —, forms 1 / max(degree, 1), and runs a
  dense region over row blocks: features · W[0:64] + (sums ∗ reciprocal) · W[64:128] + bias, with max(·, 0); it then
  gathers and scatters that output again and runs the same region without the activation. The reference scatters sums
  and ones separately, divides by max(degree, 1), joins features and quotient into 128 columns and contracts them with the
  whole weight matrix. Entry by entry the two agree: a row scatter-add is, per column, the sum over the edges landing on
  the row, so the 65-column scatter's first 64 columns and last column are the two separate scatters; the degree is a
  real number, so max(degree, 1) is a nonzero real and the quotient by it is the product with its reciprocal on every
  extended real; a contraction over 128 joined columns is the sum of the two 64-column contractions. No finiteness of
  the inputs is used. Both programs spell the source and destination columns and the gather with the same operations.

  The three frames: the two kernel programs' are the generated frames; the reference's is its generated run with the
  result dropped. The idealization rewrote no operation, so `preserves` has nothing to state.
-/
import proofs.«100534_j24515673325905_2_alg».proof.Defs
import proofs.«100534_j24515673325905_2_alg».proof.Proof.Gen.Kernel
import proofs.«100534_j24515673325905_2_alg».proof.Proof.Gen.Kernel.Skeleton
import proofs.«100534_j24515673325905_2_alg».proof.Proof.Gen.Kernel.Launch
import proofs.«100534_j24515673325905_2_alg».proof.Proof.Gen.Kernel.Points
import proofs.«100534_j24515673325905_2_alg».proof.Proof.Gen.Kernel.Frame
import proofs.«100534_j24515673325905_2_alg».proof.Proof.Gen.KernelIdeal
import proofs.«100534_j24515673325905_2_alg».proof.Proof.Gen.KernelIdeal.Skeleton
import proofs.«100534_j24515673325905_2_alg».proof.Proof.Gen.KernelIdeal.Launch
import proofs.«100534_j24515673325905_2_alg».proof.Proof.Gen.KernelIdeal.Points
import proofs.«100534_j24515673325905_2_alg».proof.Proof.Gen.KernelIdeal.Frame
import proofs.«100534_j24515673325905_2_alg».proof.Proof.Gen.ReferenceIdeal
import proofs.«100534_j24515673325905_2_alg».proof.Proof.Gen.Pre_finite_inputs
import proofs.«100534_j24515673325905_2_alg».proof.Proof.Gen.ReferenceIdeal.Run
import proofs.«100534_j24515673325905_2_alg».proof.Proof.Gen.ReferenceIdeal.Read
import proofs.«100534_j24515673325905_2_alg».proof.Proof.KernelRun
import proofs.«100534_j24515673325905_2_alg».proof.Proof.KernelValue
import proofs.«100534_j24515673325905_2_alg».proof.Proof.RefValue
import proofs.«100534_j24515673325905_2_alg».proof.Proof.Bridge
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The reference runs and leaves its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the spec's two layers of those arguments. -/
theorem algebraic : Cert.algebraic_KernelIdeal_ReferenceIdeal := by
  intro m ρ m' ρ' _ hagree
  refine ⟨fun c => Sage.net
      (Cert.KernelIdeal.HostValue.gath (m ((c.tc : Thread Cert.KernelIdeal.nD Cert.KernelIdeal.τ).loc Cert.KernelIdeal.main_arg1)))
      (Cert.KernelIdeal.HostValue.dstCol (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, Cert.ReferenceIdeal.RefValue.result_eq,
      (hagree c).1, (hagree c).2.1, (hagree c).2.2.1, (hagree c).2.2.2.1, (hagree c).2.2.2.2.1, (hagree c).2.2.2.2.2,
      ← Cert.Proof.Bridge.gath_eq, ← Cert.Proof.Bridge.dstCol_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
